-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x128 : Shape := ⟨2, ![4096, 128]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x128 : S_.BroadcastsInDim S4096x128 (![] : Fin 0 → Fin S4096x128.rank)
  reducesTo_S4096x128_S_d0_1 : S4096x128.ReducesTo [0, 1] S_

variable [Facts]

def fn {F : FTy → Type} [FloatOps F] (main_arg0 : FVec F S8x2048x4096 .f32) (main_arg1 : FVec F S4096x128 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  main_v8
-- ==== Kernel.lean ====
abbrev S8x2048x4096 : Shape := ⟨3, ![8, 2048, 4096]⟩
abbrev S4096x128 : Shape := ⟨2, ![4096, 128]⟩
abbrev S16384x4096 : Shape := ⟨2, ![16384, 4096]⟩
abbrev S16384x128 : Shape := ⟨2, ![16384, 128]⟩
abbrev S512x4096 : Shape := ⟨2, ![512, 4096]⟩
abbrev S512x128 : Shape := ⟨2, ![512, 128]⟩
abbrev S512x1024 : Shape := ⟨2, ![512, 1024]⟩
abbrev S1024x128 : Shape := ⟨2, ![1024, 128]⟩
abbrev S8x2048x128 : Shape := ⟨3, ![8, 2048, 128]⟩

abbrev nBuf : Space → Nat
  | .hbm => 6
  | .vmem => 5
  | .smem => 0
  | _ => 0

abbrev bufTy : (tb : Table) → Fin (tcTables nBuf tb) → BufTy
  | .hbm, ⟨0, _⟩ => ⟨S8x2048x4096, .f32⟩
  | .hbm, ⟨1, _⟩ => ⟨S4096x128, .f32⟩
  | .hbm, ⟨2, _⟩ => ⟨S16384x4096, .f32⟩
  | .hbm, ⟨3, _⟩ => ⟨S4096x128, .bf16⟩
  | .hbm, ⟨4, _⟩ => ⟨S16384x128, .f32⟩
  | .hbm, ⟨5, _⟩ => ⟨S8x2048x128, .f32⟩
  | .local _ .vmem, ⟨0, _⟩ => ⟨S512x4096, .f32⟩
  | .local _ .vmem, ⟨1, _⟩ => ⟨S512x4096, .f32⟩
  | .local _ .vmem, ⟨2, _⟩ => ⟨S4096x128, .bf16⟩
  | .local _ .vmem, ⟨3, _⟩ => ⟨S512x128, .f32⟩
  | .local _ .vmem, ⟨4, _⟩ => ⟨S512x128, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8x2048x4096_S16384x4096 : S8x2048x4096.ShapeCasts S16384x4096
  bitsLt_bf16_f32 : FTy.bits .bf16 < FTy.bits .f32
  inb_S512x4096_S512x1024_0_0 : ∀ a, (![0, 0] : Fin 2 → Nat) a + S512x1024.size a ≤ S512x4096.size a
  h_S512x1024 : 0 < S512x1024.numel
  shapeCasts_S512x1024_S512x1024 : S512x1024.ShapeCasts S512x1024
  inb_S4096x128_S1024x128_0_0 : ∀ a, (![0, 0] : Fin 2 → Nat) a + S1024x128.size a ≤ S4096x128.size a
  h_S1024x128 : 0 < S1024x128.numel
  shapeCasts_S1024x128_S1024x128 : S1024x128.ShapeCasts S1024x128
  inb_S512x4096_S512x1024_0_1024 : ∀ a, (![0, 1024] : Fin 2 → Nat) a + S512x1024.size a ≤ S512x4096.size a
  inb_S4096x128_S1024x128_1024_0 : ∀ a, (![1024, 0] : Fin 2 → Nat) a + S1024x128.size a ≤ S4096x128.size a
  inb_S512x4096_S512x1024_0_2048 : ∀ a, (![0, 2048] : Fin 2 → Nat) a + S512x1024.size a ≤ S512x4096.size a
  inb_S4096x128_S1024x128_2048_0 : ∀ a, (![2048, 0] : Fin 2 → Nat) a + S1024x128.size a ≤ S4096x128.size a
  inb_S512x4096_S512x1024_0_3072 : ∀ a, (![0, 3072] : Fin 2 → Nat) a + S512x1024.size a ≤ S512x4096.size a
  inb_S4096x128_S1024x128_3072_0 : ∀ a, (![3072, 0] : Fin 2 → Nat) a + S1024x128.size a ≤ S4096x128.size a
  inb_S512x128_S512x128_0_0 : ∀ a, (![0, 0] : Fin 2 → Nat) a + S512x128.size a ≤ S512x128.size a
  h_S512x128 : 0 < S512x128.numel
  shapeCasts_S16384x128_S8x2048x128 : S16384x128.ShapeCasts S8x2048x128
  dot_S512x1024_S1024x128_S512x128_1_0_0_1_n_n_wf : DotDims.WF S512x1024 S1024x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x128.size a
  hwx0_1 : ∀ i : grid0.Coords, EltTy.bits .bf16 = 32 ∨ (Rect.block (s := S4096x128) S4096x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S16384x128.size a
  hwx0_2 : ∀ i : grid0.Coords, EltTy.bits .f32 = 32 ∨ (Rect.block (s := S16384x128) S512x128.size (cc0_transform_2 i) (hinb0_2 i)).WholeWords (EltTy.packing .f32)

variable [Facts₀]

def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x4096 : Shape := ⟨3, ![8, 2048, 4096]⟩
abbrev S4096x128 : Shape := ⟨2, ![4096, 128]⟩
abbrev S8x2048x128 : Shape := ⟨3, ![8, 2048, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x128, .f32⟩
  | .hbm, ⟨2, _⟩ => ⟨S8x2048x128, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S8x2048x4096_S4096x128_S8x2048x128_2_0_01_1_n_n_wf : DotDims.WF S8x2048x4096 S4096x128 S8x2048x128 [2] [0] [0, 1] [1] [] []

variable [Facts₀]

def dot_S8x2048x4096_S4096x128_S8x2048x128_2_0_01_1_n_n : DotDims S8x2048x4096 S4096x128 S8x2048x128 where
  lhsContracting := [2]
  rhsContracting := [0]
  lhsNonContracting := [0, 1]
  rhsNonContracting := [1]
  lhsBatch := []
  rhsBatch := []
  wf := dot_S8x2048x4096_S4096x128_S8x2048x128_2_0_01_1_n_n_wf

class Facts : Prop extends Facts₀ where

variable [Facts]
-- ==== Proof.PayloadRead.lean ====
/-
  The kernel body's stored value, read at one entry.

  The body holds a [512, 4096] block `x` of the flattened input and the whole [4096, 128] table `pe`.
  It loads four [512, 1024] column bands of `x` and the four matching [1024, 128] row bands of `pe`,
  multiplies band by band into a zero accumulator, and adds the four products to a zero start:
      out = (((0 + x₀·pe₀) + x₁·pe₁) + x₂·pe₂) + x₃·pe₃ .
  At the exact values a change of float format is the identity and a matrix product into the zero
  accumulator is, at entry (r, j), the plain sum over the contracted position k of lhs (r, k) · rhs (k, j).
  So entry (r, j) of the stored value is the chain of the four partial sums, one per band.
-/
import proofs.«148938_j67954972557888_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.PayloadRead

open Cert.KernelIdeal Cert.KernelIdeal.Gen Idealize.ShloMosaic Idealize.ShloMosaic.ValueIdx

/-- The dimension numbers of one band product: [512, 1024] × [1024, 128] → [512, 128], contracting the
    1024-long axis. -/
abbrev bandDot : DotDims S512x1024 S1024x128 S512x128 := dot_S512x1024_S1024x128_S512x128_1_0_0_1_n_n

/-! The operand indices of a band product at output entry `i` and contracted position `q`, coordinate by
    coordinate: the left operand is read at (row of `i`, `q`), the right at (`q`, column of `i`). -/

theorem lhs_row (i : S512x128.Idx) (q : bandDot.contr.Idx) : (bandDot.lhsIdx i q 0).val = (i 0).val := by
  unfold DotDims.lhsIdx
  rw [dif_neg (show ¬(0 : Fin S512x1024.rank) ∈ bandDot.lhsBatch by decide),
    dif_pos (show (0 : Fin S512x1024.rank) ∈ bandDot.lhsNonContracting by decide)]
  rfl
theorem lhs_pos (i : S512x128.Idx) (q : bandDot.contr.Idx) :
    (bandDot.lhsIdx i q 1).val = (q ⟨0, by decide⟩).val :=
  bandDot.lhsIdx_val_of_single rfl i q
theorem rhs_pos (i : S512x128.Idx) (q : bandDot.contr.Idx) :
    (bandDot.rhsIdx i q 0).val = (q ⟨0, by decide⟩).val :=
  bandDot.rhsIdx_val_of_single rfl i q
theorem rhs_col (i : S512x128.Idx) (q : bandDot.contr.Idx) : (bandDot.rhsIdx i q 1).val = (i 1).val := by
  unfold DotDims.rhsIdx
  rw [dif_neg (show ¬(1 : Fin S1024x128.rank) ∈ bandDot.rhsBatch by decide),
    dif_pos (show (1 : Fin S1024x128.rank) ∈ bandDot.rhsNonContracting by decide)]
  rfl

/-- One band product into the zero accumulator, at entry (r, j): the sum over the band's 1024 positions
    of left (r, k) · right (k, j). -/
theorem band_apply (a : FVec Ideal S512x1024 .bf16) (b : FVec Ideal S1024x128 .bf16) (r : Fin 512) (j : Fin 128) :
    matmul bandDot none a b (constant (F := Ideal) S512x128 .f32 0x00000000#32) (ix2 r j)
      = ∑ k : Fin 1024, a (ix2 r k) * b (ix2 k j) := by
  simp only [matmul]
  rw [Ideal.matmul_constant_zero_apply, ← Equiv.sum_comp (contrEquiv1 bandDot 1024 rfl rfl).symm]
  refine Finset.sum_congr rfl fun k _ => ?_
  have hk := contrEquiv1_symm_val bandDot 1024 rfl rfl k
  have el : bandDot.lhsIdx (ix2 r j) ((contrEquiv1 bandDot 1024 rfl rfl).symm k) = ix2 r k :=
    funext fun c => Fin.ext (by
      match c with
      | ⟨0, _⟩ => exact lhs_row _ _
      | ⟨1, _⟩ => exact (lhs_pos _ _).trans hk)
  have er : bandDot.rhsIdx (ix2 r j) ((contrEquiv1 bandDot 1024 rfl rfl).symm k) = ix2 k j :=
    funext fun c => Fin.ext (by
      match c with
      | ⟨0, _⟩ => exact (rhs_pos _ _).trans hk
      | ⟨1, _⟩ => exact rhs_col _ _)
  rw [el, er]

/-- Entry (r, j) of the body's stored value, from the eight loaded bands: the zero start plus the four
    band sums, added in the body's order. -/
theorem stored_apply (x0 x1 x2 x3 : Vec Ideal S512x1024 .f32) (p0 p1 p2 p3 : Vec Ideal S1024x128 .bf16)
    (r : Fin 512) (j : Fin 128) :
    k0_pay1 (F := Ideal) x0 p0 x1 p1 x2 p2 x3 p3 (ix2 r j)
      = (((0 + ∑ k : Fin 1024, x0 (ix2 r k) * p0 (ix2 k j)) + ∑ k : Fin 1024, x1 (ix2 r k) * p1 (ix2 k j))
          + ∑ k : Fin 1024, x2 (ix2 r k) * p2 (ix2 k j)) + ∑ k : Fin 1024, x3 (ix2 r k) * p3 (ix2 k j) := by
  unfold k0_pay1
  simp only [addf_apply, broadcast_apply, shapeCast_self, band_apply, truncf_apply]
  show Ideal.ofBits .f32 0x00000000#32 + _ + _ + _ + _ = _
  rw [Ideal.ofBits_zero_f32]

end Cert.KernelIdeal.PayloadRead

end
-- ==== Proof.ChunkedSum.lean ====
/-
  A sum of 4096 terms taken in four consecutive chunks of 1024, in any commutative monoid.

  The kernel contracts the 4096-long axis in four pieces: it starts from the zero accumulator and
  adds, one after the other, the partial sums over the positions 0..1023, 1024..2047, 2048..3071
  and 3072..4095.  Addition being associative, that chain of partial sums is the one sum over all
  4096 positions.  Nothing here needs the terms to be finite: only that addition is an associative,
  commutative operation with neutral element 0, which holds of the extended reals.
-/
import Mathlib.Algebra.BigOperators.Fin

namespace Cert.ChunkedSum

open Finset

/-- A sum over `p + q` terms is the sum of the first `p` plus the sum of the last `q`. -/
theorem sum_fin_add {M : Type*} [AddCommMonoid M] (p q : ℕ) (f : Fin (p + q) → M) :
    ∑ k : Fin (p + q), f k
      = (∑ k : Fin p, f ⟨k.val, Nat.lt_add_right q k.isLt⟩)
        + ∑ k : Fin q, f ⟨p + k.val, Nat.add_lt_add_left k.isLt p⟩ :=
  Fin.sum_univ_add f

/-- The chain `(((0 + S₀) + S₁) + S₂) + S₃` of the four partial sums `S_c = ∑ k < 1024, f (1024·c + k)`
    is the sum of all 4096 terms. -/
theorem sum_4096_in_chunks {M : Type*} [AddCommMonoid M] (f : Fin 4096 → M) :
    (((0 + ∑ k : Fin 1024, f ⟨k.val, by omega⟩) + ∑ k : Fin 1024, f ⟨1024 + k.val, by omega⟩)
        + ∑ k : Fin 1024, f ⟨2048 + k.val, by omega⟩) + ∑ k : Fin 1024, f ⟨3072 + k.val, by omega⟩
      = ∑ k : Fin 4096, f k := by
  have h3 := sum_fin_add 3072 1024 f
  have h2 := sum_fin_add 2048 1024 (fun k : Fin (2048 + 1024) => f ⟨k.val, by omega⟩)
  have h1 := sum_fin_add 1024 1024 (fun k : Fin (1024 + 1024) => f ⟨k.val, by omega⟩)
  rw [zero_add]
  exact ((congrArg (· + _) ((congrArg (· + _) h1.symm).trans h2.symm)).trans h3.symm)

end Cert.ChunkedSum
-- ==== Proof.BlockValue.lean ====
/-
  What the body leaves in the output block, read at one entry, as ONE sum over the whole contracted axis.

  The body's single store covers the [512, 128] output block, so the block holds the stored value.  Its
  four left operands are the column bands 0..1023, 1024..2047, 2048..3071, 3072..4095 of the [512, 4096]
  input block `X`, its four right operands the row bands of the [4096, 128] table `Pe` at the same
  positions: band c of `X` at (r, k) is `X (r, 1024·c + k)`, band c of `Pe` at (k, j) is `Pe (1024·c + k, j)`.
  The four partial sums, chained from zero, are the sum over all 4096 positions:
      block (r, j) = ∑ k < 4096, X (r, k) · Pe (k, j).
-/
import proofs.«148938_j67954972557888_2_alg».proof.Proof.Gen.KernelIdeal.Frame
import proofs.«148938_j67954972557888_2_alg».proof.Proof.PayloadRead
import proofs.«148938_j67954972557888_2_alg».proof.Proof.ChunkedSum

noncomputable section

namespace Cert.KernelIdeal.BlockValue

open Cert.KernelIdeal Cert.KernelIdeal.Gen Idealize.ShloMosaic Idealize.ShloMosaic.ValueIdx

theorem zero_offsets : (![0, 0] : Fin 2 → Nat) = fun _ => 0 := funext fun a => by fin_cases a <;> rfl

/-- The column band of `X` starting at column `off`, at (r, k), is `X` at (r, off + k). -/
theorem x_band (X : Vec Ideal S512x4096 .f32) (off : ℕ)
    (inb : ∀ a, (![0, off] : Fin 2 → Nat) a + S512x1024.size a ≤ S512x4096.size a)
    (r : Fin 512) (k : Fin 1024) (K : Fin 4096) (hK : K.val = off + k.val) :
    View.ld X (Rect.unit (s := S512x4096) ![0, off] S512x1024.size inb) (ix2 r k) = X (ix2 r K) := by
  show X _ = X _
  refine congrArg X (funext fun a => Fin.ext ?_)
  match a with
  | ⟨0, _⟩ => show 0 + 1 * r.val = r.val; omega
  | ⟨1, _⟩ => show off + 1 * k.val = K.val; omega

/-- The row band of `Pe` starting at row `off`, at (k, j), is `Pe` at (off + k, j). -/
theorem pe_band (Pe : Vec Ideal S4096x128 .bf16) (off : ℕ)
    (inb : ∀ a, (![off, 0] : Fin 2 → Nat) a + S1024x128.size a ≤ S4096x128.size a)
    (k : Fin 1024) (j : Fin 128) (K : Fin 4096) (hK : K.val = off + k.val) :
    View.ld Pe (Rect.unit (s := S4096x128) ![off, 0] S1024x128.size inb) (ix2 k j) = Pe (ix2 K j) := by
  show Pe _ = Pe _
  refine congrArg Pe (funext fun a => Fin.ext ?_)
  match a with
  | ⟨0, _⟩ => show off + 1 * k.val = K.val; omega
  | ⟨1, _⟩ => show 0 + 1 * j.val = j.val; omega

/-- Entry (r, j) of the output block the body leaves: the sum over all 4096 positions k of
    `X (r, k) · Pe (k, j)`. -/
theorem block_apply (X : Vec Ideal S512x4096 .f32) (Pe : Vec Ideal S4096x128 .bf16) (r : Fin 512) (j : Fin 128) :
    out0_2 (F := Ideal) X Pe (ix2 r j) = ∑ k : Fin 4096, X (ix2 r k) * Pe (ix2 k j) := by
  unfold out0_2
  rw [View.canon_unit_zero zero_offsets, PayloadRead.stored_apply,
    ← ChunkedSum.sum_4096_in_chunks (fun k : Fin 4096 => X (ix2 r k) * Pe (ix2 k j))]
  refine congrArg₂ (· + ·) (congrArg₂ (· + ·) (congrArg₂ (· + ·) (congrArg (0 + ·) ?_) ?_) ?_) ?_
  all_goals refine Finset.sum_congr rfl fun k _ => ?_
  · exact congrArg₂ (· * ·) (x_band X 0 _ r k ⟨k.val, by omega⟩ (Nat.zero_add _).symm)
      (pe_band Pe 0 _ k j ⟨k.val, by omega⟩ (Nat.zero_add _).symm)
  · exact congrArg₂ (· * ·) (x_band X 1024 _ r k ⟨1024 + k.val, by omega⟩ rfl)
      (pe_band Pe 1024 _ k j ⟨1024 + k.val, by omega⟩ rfl)
  · exact congrArg₂ (· * ·) (x_band X 2048 _ r k ⟨2048 + k.val, by omega⟩ rfl)
      (pe_band Pe 2048 _ k j ⟨2048 + k.val, by omega⟩ rfl)
  · exact congrArg₂ (· * ·) (x_band X 3072 _ r k ⟨3072 + k.val, by omega⟩ rfl)
      (pe_band Pe 3072 _ k j ⟨3072 + k.val, by omega⟩ rfl)

end Cert.KernelIdeal.BlockValue

end
-- ==== Proof.Spec.lean ====
/-
  The one function both programs compute.

  `x` is an [8, 2048, 4096] array and `pe` a [4096, 128] table.  The result is the [8, 2048, 128] array
      embed x pe (b, s, d) = ∑ m < 4096, x (b, s, m) · pe (m, d),
  the contraction of the last axis of `x` with the first axis of `pe`, on the extended reals.

  The kernel computes it on the rows flattened to one axis of 16384 = 8·2048: `flat A pe (R, d) = ∑ m, A (R, m) · pe (m, d)`
  with `A (2048·b + s, m) = x (b, s, m)`, and folds the result back.  `flat_fold` is that bookkeeping: it
  moves no term of any sum, so it holds whatever the entries are (infinite ones included).
-/
import Idealize.ShloMosaic.Lib.ValueIdx
import Idealize.ShloMosaic.PureOps.Ideal

noncomputable section

namespace Cert.Spec

open Idealize.ShloMosaic Idealize.ShloMosaic.ValueIdx

/-- The contraction of the last axis of `x` with the first axis of `pe`. -/
def embed (x : (⟨3, ![8, 2048, 4096]⟩ : Shape).Idx → EReal) (pe : (⟨2, ![4096, 128]⟩ : Shape).Idx → EReal) :
    (⟨3, ![8, 2048, 128]⟩ : Shape).Idx → EReal :=
  fun i => ∑ k : Fin 4096, x (ix3 ⟨(i 0).val, (i 0).isLt⟩ ⟨(i 1).val, (i 1).isLt⟩ k) * pe (ix2 k ⟨(i 2).val, (i 2).isLt⟩)

theorem embed_apply (x : (⟨3, ![8, 2048, 4096]⟩ : Shape).Idx → EReal) (pe : (⟨2, ![4096, 128]⟩ : Shape).Idx → EReal)
    (b : Fin 8) (s : Fin 2048) (d : Fin 128) :
    embed x pe (ix3 b s d) = ∑ k : Fin 4096, x (ix3 b s k) * pe (ix2 k d) := rfl

/-- The same product with the first two axes flattened into one of 16384 rows. -/
def flat (A : (⟨2, ![16384, 4096]⟩ : Shape).Idx → EReal) (pe : (⟨2, ![4096, 128]⟩ : Shape).Idx → EReal) :
    (⟨2, ![16384, 128]⟩ : Shape).Idx → EReal :=
  fun i => ∑ k : Fin 4096, A (ix2 ⟨(i 0).val, (i 0).isLt⟩ k) * pe (ix2 k ⟨(i 1).val, (i 1).isLt⟩)

theorem flat_apply (A : (⟨2, ![16384, 4096]⟩ : Shape).Idx → EReal) (pe : (⟨2, ![4096, 128]⟩ : Shape).Idx → EReal)
    (R : Fin 16384) (d : Fin 128) :
    flat A pe (ix2 R d) = ∑ k : Fin 4096, A (ix2 R k) * pe (ix2 k d) := rfl

/-- Row `2048·b + s` of the flattened product of the flattened `x` is row (b, s) of the product of `x`. -/
theorem flat_fold (x : (⟨3, ![8, 2048, 4096]⟩ : Shape).Idx → EReal) (A : (⟨2, ![16384, 4096]⟩ : Shape).Idx → EReal)
    (pe pe' : (⟨2, ![4096, 128]⟩ : Shape).Idx → EReal)
    (hA : ∀ (b : Fin 8) (s : Fin 2048) (R : Fin 16384) (k : Fin 4096), R.val = b.val * 2048 + s.val →
      A (ix2 R k) = x (ix3 b s k))
    (hpe : ∀ i, pe' i = pe i)
    (b : Fin 8) (s : Fin 2048) (R : Fin 16384) (hR : R.val = b.val * 2048 + s.val) (d : Fin 128) :
    flat A pe' (ix2 R d) = embed x pe (ix3 b s d) := by
  rw [flat_apply, embed_apply]
  exact Finset.sum_congr rfl fun k _ => by rw [hA b s R k hR, hpe]

end Cert.Spec

end
-- ==== Proof.ArrayValue.lean ====
/-
  The [16384, 128] array the region leaves: the flattened product of the arrays it found.

  The grid has 32 points; point t handles the 512 rows 512·t .. 512·t + 511.  Its input block is those rows
  of the flattened input (all 4096 columns), the table's block is the whole table at every point, and its
  output block is those rows of the result (all 128 columns).  So what point t writes back is block t of
      flat A Pe (R, d) = ∑ m < 4096, A (R, m) · Pe (m, d),
  and row R is written by point R / 512: the 32 blocks tile the array, which therefore ends holding `flat A Pe`.
-/
import proofs.«148938_j67954972557888_2_alg».proof.Proof.BlockValue
import proofs.«148938_j67954972557888_2_alg».proof.Proof.Spec
import Idealize.ShloMosaic.Lib.Pipeline.Value

set_option maxRecDepth 16384

noncomputable section

namespace Cert.KernelIdeal.ArrayValue

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-- The printed index maps over the grid: the input block and the output block of point t are both block row t,
    over all columns; the table's block is the whole table. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row r of point t's input block is row 512·t + r of the flattened input. -/
theorem x_block_read (c : Dev nD) (t : Fin cfg0.N) (r : Fin 512) (k : Fin 4096) (R : Fin 16384)
    (hR : R.val = t.val * 512 + r.val) :
    iblk m c 0 t (ix2 r k) = V m c main_v0 (ix2 R k) := by
  show V m c main_v0 (((cfg0.win 0).blk t).view.emb (ix2 r k)) = V m c main_v0 (ix2 R k)
  obtain ⟨e0, e1, -, -, -, -⟩ := idx_facts t
  refine congrArg (V m c main_v0) (funext fun a => Fin.ext ?_)
  match a with
  | ⟨0, _⟩ => show win0_0.index t (0 : Fin 2) * 512 + 1 * r.val = R.val; omega
  | ⟨1, _⟩ => show win0_0.index t (1 : Fin 2) * 4096 + 1 * k.val = k.val; omega

/-- The table's block at any point is the table. -/
theorem pe_block_read (c : Dev nD) (t : Fin cfg0.N) (k : Fin 4096) (d : Fin 128) :
    iblk m c 1 t (ix2 k d) = V m c main_v1 (ix2 k d) := by
  show V m c main_v1 (((cfg0.win 1).blk t).view.emb (ix2 k d)) = V m c main_v1 (ix2 k d)
  obtain ⟨-, -, e2, e3, -, -⟩ := idx_facts t
  refine congrArg (V m c main_v1) (funext fun a => Fin.ext ?_)
  match a with
  | ⟨0, _⟩ => show win0_1.index t (0 : Fin 2) * 4096 + 1 * k.val = k.val; omega
  | ⟨1, _⟩ => show win0_1.index t (1 : Fin 2) * 128 + 1 * d.val = d.val; omega

/-- Row r of point t's output block sits at row 512·t + r of the result array. -/
theorem out_block_emb (t : Fin cfg0.N) (r : Fin 512) (d : Fin 128) (R : Fin 16384) (hR : R.val = t.val * 512 + r.val) :
    ((cfg0.win 2).blk t).view.emb (ix2 r d) = (ix2 R d : S16384x128.Idx) := by
  obtain ⟨-, -, -, -, e4, e5⟩ := idx_facts t
  refine funext fun a => Fin.ext ?_
  match a with
  | ⟨0, _⟩ => show win0_2.index t (0 : Fin 2) * 512 + 1 * r.val = R.val; omega
  | ⟨1, _⟩ => show win0_2.index t (1 : Fin 2) * 128 + 1 * d.val = d.val; omega

/-- WHAT POINT t WRITES BACK is block t of the flattened product of the arrays the region found. -/
theorem flushed_eq (c : Dev nD) (t : Fin cfg0.N) :
    (dats m 0 c).flushed 2 t
      = ((cfg0.win 2).blk t).view.read (Elt Ideal) (Cert.Spec.flat (V m c main_v0) (V m c main_v1)) := by
  show (cfg0.win 2).cut (grid0.coords t) ((dats m 0 c).after 2 t) = _
  rw [after0_2]
  funext y
  obtain ⟨r, d, rfl⟩ : ∃ (r : Fin 512) (d : Fin 128), y = ix2 r d := ⟨y 0, y 1, eq_ix2 y⟩
  have hlt : t.val * 512 + r.val < 16384 := by
    have h32 : cfg0.N = 32 := N_0
    have := t.isLt; omega
  show out0_2 (iblk m c 0 t) (iblk m c 1 t) (ix2 r d)
    = Cert.Spec.flat (V m c main_v0) (V m c main_v1) (((cfg0.win 2).blk t).view.emb (ix2 r d))
  rw [out_block_emb t r d ⟨t.val * 512 + r.val, hlt⟩ rfl, Cert.Spec.flat_apply]
  refine (BlockValue.block_apply (iblk m c 0 t) (iblk m c 1 t) r d).trans ?_
  exact Finset.sum_congr rfl fun k _ =>
    congrArg₂ (· * ·) (x_block_read m c t r k ⟨t.val * 512 + r.val, hlt⟩ rfl) (pe_block_read m c t k d)

/-- An index of the result array is in point t's block iff its row is one of the point's 512 rows. -/
theorem mem_blk (t : Fin cfg0.N) (i : S16384x128.Idx) :
    i ∈ ((cfg0.win 2).blk t).view.set ↔ ∀ a : Fin 2, win0_2.index t a * S512x128.size a ≤ (i a).val
      ∧ (i a).val < win0_2.index t a * S512x128.size a + S512x128.size a := by
  show i ∈ ((View.whole main_v2).slice (win0_2.rect t)).set ↔ _
  rw [View.set_slice_whole, Rect.mem_set_unit]
  exact Iff.rfl

/-- Every entry of the result array is written by some point: row R by point R / 512. -/
theorem cover (i : S16384x128.Idx) :
    ∃ t : Fin cfg0.N, (cfg0.win 2).flush t = true ∧ i ∈ ((cfg0.win 2).blk t).view.set := by
  have hi0 : (i 0).val < 16384 := (i 0).isLt
  have hi1 : (i 1).val < 128 := (i 1).isLt
  have h32 : cfg0.N = 32 := N_0
  obtain ⟨t, ht⟩ : ∃ t : Fin cfg0.N, t.val = (i 0).val / 512 := ⟨⟨(i 0).val / 512, by omega⟩, rfl⟩
  refine ⟨t, flush0_2 t, ?_⟩
  rw [mem_blk]
  obtain ⟨-, -, -, -, e4, e5⟩ := idx_facts t
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 128 ≤ (i 1).val ∧ (i 1).val < win0_2.index t (1 : Fin 2) * 128 + 128
    omega

/-- THE ARRAY after the region: the flattened product of the arrays the region found. -/
theorem final (c : Dev nD) :
    (dats m 0 c).arrAt 2 cfg0.N = Cert.Spec.flat (V m c main_v0) (V m c main_v1) :=
  (dats m 0 c).arrAt_eq_of_cover 2 _ (fun t _ => flushed_eq m c t) cover

end Cert.KernelIdeal.ArrayValue

end
-- ==== Proof.HostEnds.lean ====
/-
  The host operations around the region.

  Before the region the [8, 2048, 4096] input is recast to [16384, 4096] — entry (2048·b + s, m) of the recast
  array is entry (b, s, m) of the input, both having the same row-major position — and the table is
  converted to a narrower float format, which at the exact values changes nothing.  After the region the
  [16384, 128] result is recast to [8, 2048, 128] the same way.
-/
import proofs.«148938_j67954972557888_2_alg».proof.Proof.Gen.KernelIdeal.Frame
import Idealize.ShloMosaic.Lib.ValueIdx
import Idealize.ShloMosaic.Lib.Pipeline.Value
import Idealize.ShloMosaic.Lib.StableHlo.Run

set_option maxRecDepth 16384

noncomputable section

namespace Cert.KernelIdeal.HostEnds

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-- The flattened input as the region finds it: the launch input recast. -/
theorem flat_input_eq (c : Dev nD) :
    (V m c main_v0 : S16384x4096.Idx → EReal)
      = shapeCast S16384x4096 (m ((c : Thread nD τ).loc main_arg0)) shapeCasts_S8x2048x4096_S16384x4096 := by
  show StableHlo.after hostOps0 (fun b => m (c, b)) (Proc.devRef .tc main_v0) = _
  after_results
  rfl

/-- Entry (2048·b + s, k) of the flattened input is entry (b, s, k) of the launch input. -/
theorem flat_input_apply (c : Dev nD) (b : Fin 8) (s : Fin 2048) (R : Fin 16384) (k : Fin 4096)
    (hR : R.val = b.val * 2048 + s.val) :
    V m c main_v0 (ix2 R k) = m ((c : Thread nD τ).loc main_arg0) (ix3 b s k) := by
  refine (congrFun (flat_input_eq m c) (ix2 R k)).trans ?_
  refine shapeCast_apply _ _ (ix2 R k) (ix3 b s k) ?_
  rw [Shape.rowMajor_val_three, Shape.rowMajor_val_two]
  show (b.val * 2048 + s.val) * 4096 + k.val = R.val * 4096 + k.val
  rw [hR]

/-- The table as the region finds it is the launch table: a change of float format is the identity on the
    exact values. -/
theorem table_apply (c : Dev nD) (i : S4096x128.Idx) :
    V m c main_v1 i = m ((c : Thread nD τ).loc main_arg1) i := by
  have e : (V m c main_v1 : S4096x128.Idx → EReal)
      = (truncf (F := Ideal) (s := S4096x128) (φ := .f32) .bf16 (m ((c : Thread nD τ).loc main_arg1)) bitsLt_bf16_f32 :
          S4096x128.Idx → EReal) := by
    show StableHlo.after hostOps0 (fun b => m (c, b)) (Proc.devRef .tc main_v1) = _
    after_results
  exact congrFun e i

/-- The program's result: the region's [16384, 128] array recast to [8, 2048, 128]. -/
theorem result_eq (c : Dev nD) :
    (Pipeline.afterTail₀ cfgs (dats m) 0 (V0 m) [hostOps1] c main_v3 : S8x2048x128.Idx → EReal)
      = shapeCast S8x2048x128 ((dats m 0 c).arrAt 2 cfg0.N) shapeCasts_S16384x128_S8x2048x128 := by
  unfold Pipeline.afterTail₀
  show StableHlo.after hostOps1 _ (Proc.devRef .tc main_v3) = _
  after_results
  exact congrArg (fun A : S16384x128.Idx → EReal => shapeCast S8x2048x128 A shapeCasts_S16384x128_S8x2048x128)
    (Pipeline.withArrays_arr spec0 launch0.win.arr_inj c (V0 m c) (fun w => (dats m 0 c).arrAt w cfg0.N) 2)

end Cert.KernelIdeal.HostEnds

end
-- ==== Proof.KernelValue.lean ====
/-
  The idealized kernel's run, with its result named: the contraction `embed x pe` of the launch arrays.

  The program's result is the region's [16384, 128] array recast to [8, 2048, 128]; that array is the
  flattened product of the flattened input and the table; the flattened input is the launch input recast
  and the table the launch table.  Entry (b, s, d) of the result is therefore row 2048·b + s of the
  flattened product, which is ∑ m < 4096, x (b, s, m) · pe (m, d).
-/
import proofs.«148938_j67954972557888_2_alg».proof.Proof.ArrayValue
import proofs.«148938_j67954972557888_2_alg».proof.Proof.HostEnds

set_option maxRecDepth 16384

noncomputable section

namespace Cert.KernelIdeal.KernelValue

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ) (ρ : Dev nD → PrngReg)

/-- The program's result, entry by entry, is the contraction of the launch arrays. -/
theorem result_is_embed (c : Dev nD) :
    (Pipeline.afterTail₀ cfgs (dats m) 0 (V0 m) [hostOps1] c main_v3 : S8x2048x128.Idx → EReal)
      = Cert.Spec.embed (m ((c : Thread nD τ).loc main_arg0)) (m ((c : Thread nD τ).loc main_arg1)) := by
  funext i
  obtain ⟨b, s, d, rfl⟩ : ∃ (b : Fin 8) (s : Fin 2048) (d : Fin 128), i = ix3 b s d := ⟨i 0, i 1, i 2, eq_ix3 i⟩
  have hlt : b.val * 2048 + s.val < 16384 := by have := b.isLt; have := s.isLt; omega
  refine (congrFun (HostEnds.result_eq m c) (ix3 b s d)).trans ?_
  refine (shapeCast_apply _ _ (ix3 b s d) (ix2 ⟨b.val * 2048 + s.val, hlt⟩ d) ?_).trans ?_
  · rw [Shape.rowMajor_val_two, Shape.rowMajor_val_three]; rfl
  rw [ArrayValue.final]
  exact Cert.Spec.flat_fold _ _ _ _ (fun b s R k hR => HostEnds.flat_input_apply m c b s R k hR)
    (fun i => HostEnds.table_apply m c i) b s _ rfl d

/-- Every weakly fair execution of the idealized kernel terminates with its result at the contraction of the launch
    arrays and the arguments unchanged. -/
theorem run : θ_run defs (onTc (τ := τ) (main (F := Ideal))) ⟨m, fun _ => 0, ρ⟩ (fun r => ∀ c : Dev nD,
      r.2.mem ((c.tc : Thread nD τ).loc main_v3)
        = Cert.Spec.embed (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v3 (Pipeline.mem_restRefs_of main_v3 (by decide) (by decide))).trans (result_is_embed m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KernelValue

end
-- ==== Proof.RefValue.lean ====
/-
  The reference computes the same contraction.

  The reference is one contraction of axis 2 of `x` with axis 0 of `pe`; read at entry (b, s, d) at the exact
  values it is the sum over m < 4096 of `x (b, s, m) · pe (m, d)` — the function `embed x pe`, index for index.
-/
import proofs.«148938_j67954972557888_2_alg».proof.Proof.Gen.ReferenceIdeal.Read
import proofs.«148938_j67954972557888_2_alg».proof.Proof.Spec

noncomputable section

namespace Cert.ReferenceIdeal.RefValue

open Cert.ReferenceIdeal Cert.ReferenceIdeal.Gen Idealize.ShloMosaic Idealize.ShloMosaic.ValueIdx

theorem ref_is_embed (x : (⟨S8x2048x4096, .f32⟩ : BufTy).Contents (Elt Ideal))
    (pe : (⟨S4096x128, .f32⟩ : BufTy).Contents (Elt Ideal)) :
    Read.val_main_v0 (F := Ideal) x pe = Cert.Spec.embed x pe := by
  funext i
  rw [Read.val_main_v0_apply]
  unfold Cert.Spec.embed
  refine Finset.sum_congr rfl fun k _ => ?_
  have el : Read.lidx_main_v0 i k = ix3 ⟨(i 0).val, (i 0).isLt⟩ ⟨(i 1).val, (i 1).isLt⟩ k :=
    funext fun a => Fin.ext (by match a with | ⟨0, _⟩ => rfl | ⟨1, _⟩ => rfl | ⟨2, _⟩ => rfl)
  have er : Read.ridx_main_v0 i k = ix2 k ⟨(i 2).val, (i 2).isLt⟩ :=
    funext fun a => Fin.ext (by match a with | ⟨0, _⟩ => rfl | ⟨1, _⟩ => rfl)
  rw [el, er]
  rfl

end Cert.ReferenceIdeal.RefValue

end
-- ==== Proof.lean ====
/-
  A one-hot position embedding as a matrix product: kernel against reference, on the extended reals.

  `x` is an [8, 2048, 4096] array and `pe` a [4096, 128] table.  The reference contracts the last axis of `x`
  with the first axis of `pe`:  result (b, s, d) = ∑ m < 4096, x (b, s, m) · pe (m, d).

  The kernel flattens the first two axes of `x` into 16384 rows, converts `pe` to a narrower float format, and
  runs a grid of 32 points, each taking 512 rows.  A point multiplies its [512, 4096] block by the whole table in
  four bands of 1024 along the contracted axis, adding the four products to a zero start, and writes the
  [512, 128] block of the result; the [16384, 128] result is then folded back to [8, 2048, 128].

  At the exact values a change of float format is the identity, a matrix product into a zero accumulator is
  the plain sum of products, and the four band sums chained from zero are the sum over all 4096 positions
  (addition on the extended reals is associative with neutral element 0; no term is moved across a product,
  so no finiteness is used).  Flattening and folding back match entry (2048·b + s, ·) with entry (b, s, ·).
  Hence both programs end at `Cert.Spec.embed x pe`.

  The three frames are the generated frame certificates (the reference's is its generated run with the result
  dropped); the idealization rewrote nothing, so `preserves` is trivial.
-/
import proofs.«148938_j67954972557888_2_alg».proof.Defs
import proofs.«148938_j67954972557888_2_alg».proof.Proof.Gen.Kernel
import proofs.«148938_j67954972557888_2_alg».proof.Proof.Gen.Kernel.Skeleton
import proofs.«148938_j67954972557888_2_alg».proof.Proof.Gen.Kernel.Launch
import proofs.«148938_j67954972557888_2_alg».proof.Proof.Gen.Kernel.Points
import proofs.«148938_j67954972557888_2_alg».proof.Proof.Gen.Kernel.Frame
import proofs.«148938_j67954972557888_2_alg».proof.Proof.Gen.KernelIdeal
import proofs.«148938_j67954972557888_2_alg».proof.Proof.Gen.KernelIdeal.Skeleton
import proofs.«148938_j67954972557888_2_alg».proof.Proof.Gen.KernelIdeal.Launch
import proofs.«148938_j67954972557888_2_alg».proof.Proof.Gen.KernelIdeal.Points
import proofs.«148938_j67954972557888_2_alg».proof.Proof.Gen.KernelIdeal.Frame
import proofs.«148938_j67954972557888_2_alg».proof.Proof.Gen.ReferenceIdeal
import proofs.«148938_j67954972557888_2_alg».proof.Proof.Gen.ReferenceIdeal.Run
import proofs.«148938_j67954972557888_2_alg».proof.Proof.Gen.ReferenceIdeal.Read
import proofs.«148938_j67954972557888_2_alg».proof.Proof.Gen.Pre_finite_inputs
import proofs.«148938_j67954972557888_2_alg».proof.Proof.KernelValue
import proofs.«148938_j67954972557888_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- From memories agreeing on `x` and `pe`, the idealized kernel and the idealized reference both end with
    their result at `embed x pe`. -/
theorem algebraic : Cert.algebraic_KernelIdeal_ReferenceIdeal := by
  intro m ρ m' ρ' _ hagree
  refine ⟨fun c => Cert.Spec.embed (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v0_eq, Cert.ReferenceIdeal.RefValue.ref_is_embed,
    (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
